-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x10 .f32) (main_arg16 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x10 .f32 := Host.absf main_arg15
  let main_cst_24 : FVec F S_ .f32 := constant S_ .f32 0x7F800000#32
  let main_v65 : FVec F S128x10 .f32 := broadcastInDim S128x10 ![] bcast_S_S128x10 main_cst_24
  let main_v66 : IVec S128x10 1 := cmpf .olt main_v64 main_v65
  let main_c_25 : IVec S_ 1 := constantI S_ 1 1#1
  let main_v67 : IVec S_ 1 := (fun x v => Host.reduce IntOp.andi x v reducesTo_S128x10_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x10 .f32) (main_arg16 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x10 .f32) (main_arg16 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x10 .f32) (main_arg16 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 115
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x10, .f32⟩
  | .hbm, ⟨16, _⟩ => ⟨S10, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S100000, .i32⟩
  | .hbm, ⟨22, _⟩ => ⟨S1700000, .i32⟩
  | .hbm, ⟨23, _⟩ => ⟨S1700000, .i32⟩
  | .hbm, ⟨24, _⟩ => ⟨S_, .f32⟩
  | .hbm, ⟨25, _⟩ => ⟨S1700000, .f32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S100000x128, .f32⟩
  | .hbm, ⟨95, _⟩ => ⟨S_, .f32⟩
  | .hbm, ⟨96, _⟩ => ⟨S64x128, .f32⟩
  | .hbm, ⟨97, _⟩ => ⟨S100000x1, .i32⟩
  | .hbm, ⟨98, _⟩ => ⟨S64x128, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S64, .f32⟩
  | .hbm, ⟨103, _⟩ => ⟨S100000x1, .i32⟩
  | .hbm, ⟨104, _⟩ => ⟨S64, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64x1, .f32⟩
  | .hbm, ⟨109, _⟩ => ⟨S64x128, .f32⟩
  | .hbm, ⟨110, _⟩ => ⟨S64x128, .f32⟩
  | .hbm, ⟨111, _⟩ => ⟨S64x10, .f32⟩
  | .hbm, ⟨112, _⟩ => ⟨S1x10, .f32⟩
  | .hbm, ⟨113, _⟩ => ⟨S64x10, .f32⟩
  | .hbm, ⟨114, _⟩ => ⟨S64x10, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_7 : Ref sig .tc := ⟨.hbm, 73, rfl⟩
abbrev main_v47 : Ref sig .tc := ⟨.hbm, 74, rfl⟩
abbrev main_v48 : Ref sig .tc := ⟨.hbm, 75, rfl⟩
abbrev main_c_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_10 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_cst_12 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .f32 = 32 ∨ (Rect.block (s := S100000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v59) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 177
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x10, .f32⟩
  | 16 => ⟨S10, .f32⟩
  | 17 => ⟨S1x1600000, .i32⟩
  | 18 => ⟨S1600000, .i32⟩
  | 19 => ⟨S1x1600000, .i32⟩
  | 20 => ⟨S1600000, .i32⟩
  | 21 => ⟨S100000x128, .f32⟩
  | 22 => ⟨S100000, .i32⟩
  | 23 => ⟨S1700000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S100000, .i32⟩
  | 91 => ⟨S1700000, .i32⟩
  | 92 => ⟨S1700000, .i32⟩
  | 93 => ⟨S_, .f32⟩
  | 94 => ⟨S1700000, .f32⟩
  | 95 => ⟨S_, .f32⟩
  | 96 => ⟨S100000, .f32⟩
  | 97 => ⟨S1700000x1, .i32⟩
  | 98 => ⟨S100000, .f32⟩
  | 99 => ⟨S100000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S1700000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x128, .f32⟩
  | _ => ⟨S100000x128, .f32⟩

abbrev hbmTy0_1 (i : Nat) : BufTy := match i % 128 with
  | 0 => ⟨S1700000x1, .f32⟩
  | 1 => ⟨S1700000x128, .f32⟩
  | 2 => ⟨S1700000x128, .f32⟩
  | 3 => ⟨S_, .f32⟩
  | 4 => ⟨S100000x128, .f32⟩
  | 5 => ⟨S1700000x1, .i32⟩
  | 6 => ⟨S100000x128, .f32⟩
  | 7 => ⟨S1x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S128, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S_, .f32⟩
  | 30 => ⟨S64x128, .f32⟩
  | 31 => ⟨S100000x1, .i32⟩
  | 32 => ⟨S64x128, .f32⟩
  | 33 => ⟨S_, .f32⟩
  | 34 => ⟨S100000, .f32⟩
  | 35 => ⟨S_, .f32⟩
  | 36 => ⟨S64, .f32⟩
  | 37 => ⟨S100000x1, .i32⟩
  | 38 => ⟨S64, .f32⟩
  | 39 => ⟨S_, .f32⟩
  | 40 => ⟨S64, .f32⟩
  | 41 => ⟨S64, .f32⟩
  | 42 => ⟨S64x1, .f32⟩
  | 43 => ⟨S64x128, .f32⟩
  | 44 => ⟨S64x128, .f32⟩
  | 45 => ⟨S64x10, .f32⟩
  | 46 => ⟨S1x10, .f32⟩
  | 47 => ⟨S64x10, .f32⟩
  | 48 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call0_cst : Ref sig .tc := ⟨.hbm, 86, rfl⟩
abbrev main_call0_v0 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_8 : Ref sig .tc := ⟨.hbm, 93, rfl⟩
abbrev main_v64 : Ref sig .tc := ⟨.hbm, 94, rfl⟩
abbrev main_cst_9 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_10 : Ref sig .tc := ⟨.hbm, 100, rfl⟩
abbrev main_v69 : Ref sig .tc := ⟨.hbm, 101, rfl⟩
abbrev main_v70 : Ref sig .tc := ⟨.hbm, 102, rfl⟩
abbrev main_c_11 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_12 : Ref sig .tc := ⟨.hbm, 109, rfl⟩
abbrev main_v76 : Ref sig .tc := ⟨.hbm, 110, rfl⟩
abbrev main_v77 : Ref sig .tc := ⟨.hbm, 111, rfl⟩
abbrev main_c_13 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_14 : Ref sig .tc := ⟨.hbm, 119, rfl⟩
abbrev main_v84 : Ref sig .tc := ⟨.hbm, 120, rfl⟩
abbrev main_v85 : Ref sig .tc := ⟨.hbm, 121, rfl⟩
abbrev main_c_15 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_16 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_17 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_call1_cst : Ref sig .tc := ⟨.hbm, 154, rfl⟩
abbrev main_call1_v0 : Ref sig .tc := ⟨.hbm, 155, rfl⟩
abbrev main_v115 : Ref sig .tc := ⟨.hbm, 156, rfl⟩
abbrev main_cst_18 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_19 : Ref sig .tc := ⟨.hbm, 161, rfl⟩
abbrev main_v119 : Ref sig .tc := ⟨.hbm, 162, rfl⟩
abbrev main_cst_20 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_21 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelRun.lean ====
/-
  The idealized kernel program's run, with its result named.

  Every weakly fair execution of the program terminates without a fault; the argument arrays end as they were
  launched, and the result buffer ends at the contents the last stretch of host operations leaves, computed from
  the third pallas_call's output. The run is the same walk through the program's seven segments — four stretches
  of host operations and three pallas_calls between them — that shows the arguments unchanged; here the result
  buffer is read off the final contents as well.
-/
import proofs.«153203_j69114613730602_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel program: it terminates, the result buffer holds what the last host stretch
    computes from the contents the third pallas_call leaves, and every argument array is as launched. -/
theorem run_result : θ_run defs (onTc (τ := τ) (main (F := F))) ⟨m, fun _ => 0, ρ⟩ (fun r => ∀ c : Dev nD,
      r.2.mem ((c.tc : Thread nD τ).loc main_v81) = W7 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v81 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c)⟩)

end Cert.KernelIdeal.Result

end
-- ==== Proof.RefRead.lean ====
/-
  The reference program's run, read one operation at a time.
-/
import proofs.«153203_j69114613730602_1_alg».proof.Proof.Gen.ReferenceIdeal.Run
import proofs.«153203_j69114613730602_1_alg».proof.Proof.Gen.ReferenceIdeal.Read
-- ==== Proof.Region0.lean ====
/-
  The first pallas_call: a matrix product, computed 4000 rows at a time.

  The call's grid has 25 points. At point `t` the body loads rows 4000·t … 4000·t + 3999 of the left operand and
  the whole right operand, multiplies them into a zero accumulator, and writes the 4000 × 128 block back to the
  same rows of the output. At the ideal instance the change of format to bf16 before the product is the identity,
  so entry (r, q) of the block is the sum over k of left(r, k) · right(k, q): entry i of the output array is the
  sum over k of left(i₀, k) · right(k, i₁), whatever the call finds in its operand arrays. The 25 blocks tile the
  100000 rows, so the output array ends holding exactly this product.
-/
import proofs.«153203_j69114613730602_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen Idealize.ShloMosaic Idealize.ShloMosaic.TcCoe Idealize.SL.Sem
open Idealize.ShloMosaic.Pipeline (Dat)

/-! ## The product, entry by entry -/

/-- The entry of the node matrix in the row of `i` and column `k`. -/
abbrev rowAt (i : S100000x128.Idx) (k : Fin 128) : S100000x128.Idx := fun a => match a with
  | ⟨0, _⟩ => ⟨(i 0).val, (i 0).isLt⟩
  | ⟨1, _⟩ => ⟨k.val, k.isLt⟩

/-- The entry of the weight matrix in row `k` and the column of `i`. -/
abbrev colAt (i : S100000x128.Idx) (k : Fin 128) : S128x128.Idx := fun a => match a with
  | ⟨0, _⟩ => ⟨k.val, k.isLt⟩
  | ⟨1, _⟩ => ⟨(i 1).val, (i 1).isLt⟩

/-- The matrix product of a 100000 × 128 array and a 128 × 128 array: entry `i` is the sum over `k` of the left
    operand at (i₀, k) times the right operand at (k, i₁). -/
def prod (x : S100000x128.Idx → EReal) (w : S128x128.Idx → EReal) : S100000x128.Idx → EReal :=
  fun i => ∑ k : Fin 128, x (rowAt i k) * w (colAt i k)

/-! ## One block of the product -/

/-- In a 4000 × 128 block: the entry in the row of `j` and column `k`. -/
abbrev blkRowAt (j : S4000x128.Idx) (k : Fin 128) : S4000x128.Idx := fun a => match a with
  | ⟨0, _⟩ => ⟨(j 0).val, (j 0).isLt⟩
  | ⟨1, _⟩ => ⟨k.val, k.isLt⟩

/-- The entry of the weight matrix in row `k` and the column of the block index `j`. -/
abbrev blkColAt (j : S4000x128.Idx) (k : Fin 128) : S128x128.Idx := fun a => match a with
  | ⟨0, _⟩ => ⟨k.val, k.isLt⟩
  | ⟨1, _⟩ => ⟨(j 1).val, (j 1).isLt⟩

theorem lhs_0 (j : S4000x128.Idx) (q : dot_S4000x128_S128x128_S4000x128_1_0_0_1_n_n.contr.Idx) : (dot_S4000x128_S128x128_S4000x128_1_0_0_1_n_n.lhsIdx j q 0).val = (j 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_1 (j : S4000x128.Idx) (q : dot_S4000x128_S128x128_S4000x128_1_0_0_1_n_n.contr.Idx) : (dot_S4000x128_S128x128_S4000x128_1_0_0_1_n_n.lhsIdx j q 1).val = (q ⟨0, by decide⟩).val :=
  dot_S4000x128_S128x128_S4000x128_1_0_0_1_n_n.lhsIdx_val_of_single rfl j q
theorem rhs_0 (j : S4000x128.Idx) (q : dot_S4000x128_S128x128_S4000x128_1_0_0_1_n_n.contr.Idx) : (dot_S4000x128_S128x128_S4000x128_1_0_0_1_n_n.rhsIdx j q 0).val = (q ⟨0, by decide⟩).val :=
  dot_S4000x128_S128x128_S4000x128_1_0_0_1_n_n.rhsIdx_val_of_single rfl j q
theorem rhs_1 (j : S4000x128.Idx) (q : dot_S4000x128_S128x128_S4000x128_1_0_0_1_n_n.contr.Idx) : (dot_S4000x128_S128x128_S4000x128_1_0_0_1_n_n.rhsIdx j q 1).val = (j 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000 × 128 by 128 × 128 product into a zero accumulator, read at an entry: the sum over the one contracted
    axis of row times column. -/
theorem matmul_zero_apply (l : FVec Ideal S4000x128 .bf16) (r : FVec Ideal S128x128 .bf16) (j : S4000x128.Idx) :
    matmul dot_S4000x128_S128x128_S4000x128_1_0_0_1_n_n none l r (constant S4000x128 .f32 0x00000000#32) j = ∑ k : Fin 128, l (blkRowAt j k) * r (blkColAt j k) := by
  refine (Ideal.matmul_constant_zero_apply dot_S4000x128_S128x128_S4000x128_1_0_0_1_n_n none l r j).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx j ((ValueIdx.contrEquiv1 dot_S4000x128_S128x128_S4000x128_1_0_0_1_n_n 128 rfl rfl).symm k) = blkRowAt j k := funext fun a => Fin.ext (by
    match a with
    | ⟨0, _⟩ => exact lhs_0 _ _
    | ⟨1, _⟩ => exact (lhs_1 _ _).trans hk)
  have er : dot_S4000x128_S128x128_S4000x128_1_0_0_1_n_n.rhsIdx j ((ValueIdx.contrEquiv1 dot_S4000x128_S128x128_S4000x128_1_0_0_1_n_n 128 rfl rfl).symm k) = blkColAt j k := funext fun a => Fin.ext (by
    match a with
    | ⟨0, _⟩ => exact (rhs_0 _ _).trans hk
    | ⟨1, _⟩ => exact rhs_1 _ _)
  rw [el, er]

/-- The body's one stored value, entry by entry: the block of the left operand times the right operand. -/
theorem pay_apply (x0 : Vec Ideal S4000x128 .f32) (x1 : Vec Ideal S128x128 .f32) (j : S4000x128.Idx) :
    k0_pay1 x0 x1 j = ∑ k : Fin 128, x0 (blkRowAt j k) * x1 (blkColAt j k) := by
  unfold k0_pay1
  exact matmul_zero_apply _ _ j

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The three windows' block indices at grid point `t`: the left operand and the output move down the rows with
    `t`; the right operand stays whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the operand arrays as the call finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero zero_offsets]
  simp only [View.ld_unit_zero (S := S4000x128) zero_offsets, View.ld_unit_zero (S := S128x128) zero_offsets]
  obtain ⟨e0, e1, e2, e3, e4, e5⟩ := idx_facts t
  funext j
  show k0_pay1 (iblk0 V c 0 t) (iblk0 V c 1 t) j = prod (V c main_arg0) (V c main_arg3) (((cfg0.win 2).blk t).view.emb j)
  refine (pay_apply _ _ j).trans ?_
  unfold prod
  refine Finset.sum_congr rfl fun k _ => ?_
  have hj0 : (j 0).val < 4000 := (j 0).isLt
  have hj1 : (j 1).val < 128 := (j 1).isLt
  have h0 : ((cfg0.win 0).blk t).view.emb (blkRowAt j k) = rowAt (((cfg0.win 2).blk t).view.emb j) k := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * k.val = k.val; omega
  have h1 : ((cfg0.win 1).blk t).view.emb (blkColAt j k) = colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun (a b : EReal) => a * b) (congrArg (V c main_arg0) h0) (congrArg (V c main_arg3) h1)

/-- An index of the output array lies in point `t`'s block iff each coordinate lies in the block's range. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v27).slice (win0_2.rect t)).set ↔ _
  rw [View.set_slice_whole, Rect.mem_set_unit]
  exact Iff.rfl

/-- Every row belongs to a block: row `r` is written at grid point `r / 4000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 4000 < cfg0.N := by show _ < grid0.N; rw [N_0]; omega
  obtain ⟨e0, e1, e2, e3, e4, e5⟩ := idx_facts ⟨(i 0).val / 4000, hN⟩
  have e4' : win0_2.index ⟨(i 0).val / 4000, hN⟩ (0 : Fin 2) = (i 0).val / 4000 := e4
  refine ⟨⟨(i 0).val / 4000, hN⟩, flush0_2 _, ?_⟩
  rw [mem_blk]
  intro a
  match a with
  | ⟨0, _⟩ => show win0_2.index ⟨(i 0).val / 4000, hN⟩ (0 : Fin 2) * 4000 ≤ (i 0).val ∧ (i 0).val < win0_2.index ⟨(i 0).val / 4000, hN⟩ (0 : Fin 2) * 4000 + 4000; omega
  | ⟨1, _⟩ => show win0_2.index ⟨(i 0).val / 4000, hN⟩ (1 : Fin 2) * 128 ≤ (i 1).val ∧ (i 1).val < win0_2.index ⟨(i 0).val / 4000, hN⟩ (1 : Fin 2) * 128 + 128; omega

/-- The output array after the call: the product of the two operand arrays as the call finds them. -/
theorem final (c : Dev nD) : (dat0 V c).arrAt 2 cfg0.N = prod (V c main_arg0) (V c main_arg3) :=
  (dat0 V c).arrAt_eq_of_cover 2 _ (fun t _ => flushed_eq V c t) cover

end Cert.KernelIdeal.Product

end
-- ==== Proof.BatchNorm.lean ====
/-
  Bias, batch normalisation in evaluation mode, and ReLU, one entry at a time.

  Both the second and the third pallas_call apply, to each entry `a` of a 4000 × 128 block and the entries of five
  per-column parameter rows in the same column,
      max ((((a + b) − rm) · rsqrt (rv + ε)) · g + be, 0),
  with ε the single-precision value nearest 10⁻⁵. The parameter rows are 1 × 128 arrays broadcast down the rows of
  the block: read at (r, q) such a broadcast is the row's entry (0, q).
-/
import proofs.«153203_j69114613730602_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Norm

open Cert.KernelIdeal Cert.KernelIdeal.Gen Idealize.ShloMosaic Idealize.ShloMosaic.TcCoe Idealize.SL.Sem

/-- Bias, normalisation by the running mean and variance, scale and shift, then ReLU, of one entry. -/
def bnRelu (a b rm rv g be : EReal) : EReal :=
  max ((((a + b) - rm) * Ideal.rsqrt (rv + Ideal.ofBits .f32 0x3727C5AC#32)) * g + be) (Ideal.ofBits .f32 0x00000000#32)

/-- The entry of a 1 × 128 parameter row in the column of the block index `j`. -/
abbrev rowIx (j : S4000x128.Idx) : S1x128.Idx := fun a => match a with
  | ⟨0, _⟩ => ⟨0, Nat.one_pos⟩
  | ⟨1, _⟩ => ⟨(j 1).val, (j 1).isLt⟩

/-- A 1 × 128 row broadcast down 4000 rows, read at an entry: the row's entry in that column. -/
theorem row_bcast {α : Type} (v : S1x128.Idx → α) (j : S4000x128.Idx) :
    broadcastTo S4000x128 v broadcasts_S1x128_S4000x128 j = v (rowIx j) :=
  broadcastTo_apply v broadcasts_S1x128_S4000x128 j (rowIx j) (fun a => match a with
    | ⟨0, _⟩ => by show 0 = if (1 : Nat) = 1 then 0 else _; rw [if_pos rfl]
    | ⟨1, _⟩ => by show (j 1).val = if (128 : Nat) = 1 then 0 else _; rw [if_neg (by decide)]; rfl)

theorem rsqrt_apply {s : Shape} {φ : FTy} (x : FVec Ideal s φ) (i : s.Idx) : rsqrt x i = Ideal.rsqrt (x i) := rfl

/-- The elementwise chain both bodies apply to a block and its five parameter rows, read at an entry. -/
theorem chain_apply (v0 : Vec Ideal S4000x128 .f32) (v2 v6 v10 v17 v21 : Vec Ideal S1x128 .f32) (j : S4000x128.Idx) :
    maximumf (F := Ideal) (addf (mulf (mulf (subf (addf (shapeCast S4000x128 v0 shapeCasts_S4000x128_S4000x128)
        (broadcastTo S4000x128 (shapeCast S1x128 v2 shapeCasts_S1x128_S1x128) broadcasts_S1x128_S4000x128))
        (broadcastTo S4000x128 (shapeCast S1x128 v6 shapeCasts_S1x128_S1x128) broadcasts_S1x128_S4000x128))
        (broadcastTo S4000x128 (rsqrt (addf (shapeCast S1x128 v10 shapeCasts_S1x128_S1x128) (broadcast S1x128 (Scalar.ofBits (F := Ideal) .f32 0x3727C5AC#32)))) broadcasts_S1x128_S4000x128))
        (broadcastTo S4000x128 (shapeCast S1x128 v17 shapeCasts_S1x128_S1x128) broadcasts_S1x128_S4000x128))
        (broadcastTo S4000x128 (shapeCast S1x128 v21 shapeCasts_S1x128_S1x128) broadcasts_S1x128_S4000x128))
      (broadcast S4000x128 (Scalar.ofBits (F := Ideal) .f32 0x00000000#32)) j
    = bnRelu (v0 j) (v2 (rowIx j)) (v6 (rowIx j)) (v10 (rowIx j)) (v17 (rowIx j)) (v21 (rowIx j)) := by
  simp only [shapeCast_self]
  simp only [ValueIdx.maximumf_apply, ValueIdx.addf_apply, ValueIdx.mulf_apply, ValueIdx.subf_apply, row_bcast,
    rsqrt_apply, ValueIdx.broadcast_apply]
  rfl

end Cert.KernelIdeal.Norm

end
-- ==== Proof.Region2.lean ====
/-
  The third pallas_call: bias, batch normalisation and ReLU of the aggregated features, 4000 rows at a time.

  At grid point `t` the body loads rows 4000·t … 4000·t + 3999 of the aggregated array and five 1 × 128 parameter
  rows, applies the entrywise chain of the shared module to the block, and writes the block back to the same rows of
  the output. Entry i of the output array is therefore the chain applied to entry i of the aggregated array and the
  parameters in column i₁; the 25 blocks tile the 100000 rows.
-/
import proofs.«153203_j69114613730602_1_alg».proof.Proof.BatchNorm

set_option maxRecDepth 16384

noncomputable section

namespace Cert.KernelIdeal.NormRelu

open Cert.KernelIdeal Cert.KernelIdeal.Gen Cert.KernelIdeal.Norm Idealize.ShloMosaic Idealize.ShloMosaic.TcCoe Idealize.SL.Sem
open Idealize.ShloMosaic.Pipeline (Dat)

/-- The entry of a 1 × 128 parameter row in the column of the array index `i`. -/
abbrev rowOf (i : S100000x128.Idx) : S1x128.Idx := fun a => match a with
  | ⟨0, _⟩ => ⟨0, Nat.one_pos⟩
  | ⟨1, _⟩ => ⟨(i 1).val, (i 1).isLt⟩

/-- Bias, batch normalisation and ReLU of a whole 100000 × 128 array, the parameters given as 1 × 128 rows in the
    order bias, scale, shift, running mean, running variance. -/
def normRelu (agg : S100000x128.Idx → EReal) (b g be rm rv : S1x128.Idx → EReal) : S100000x128.Idx → EReal :=
  fun i => bnRelu (agg i) (b (rowOf i)) (rm (rowOf i)) (rv (rowOf i)) (g (rowOf i)) (be (rowOf i))

/-- The body's one stored value at an entry of the block. -/
theorem pay_apply (v0 : Vec Ideal S4000x128 .f32) (v2 v6 v10 v17 v21 : Vec Ideal S1x128 .f32) (j : S4000x128.Idx) :
    k2_pay1 v0 v2 v6 v10 v17 v21 j = bnRelu (v0 j) (v2 (rowIx j)) (v6 (rowIx j)) (v10 (rowIx j)) (v17 (rowIx j)) (v21 (rowIx j)) := by
  unfold k2_pay1
  exact chain_apply v0 v2 v6 v10 v17 v21 j

variable (V : (c : Dev nD) → (b : Ref sig .tc) → Buf (Elt Ideal) ((c : Thread nD τ).loc b))

theorem zero_offsets : (![0, 0] : Fin 2 → Nat) = fun _ => 0 := funext fun a => by fin_cases a <;> rfl

/-- The windows' block indices at grid point `t`: the aggregated array and the output move down the rows with `t`;
    each parameter row stays whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 4000000 in
/-- What point `t` writes back is block `t` of the normalised array. -/
theorem flushed_eq (c : Dev nD) (t : Fin cfg2.N) :
    (dat2 V c).flushed 6 t = ((cfg2.win 6).blk t).view.read (Elt Ideal)
      (normRelu (V c main_v59) (V c main_v60) (V c main_v61) (V c main_v62) (V c main_v63) (V c main_v64)) := by
  show (cfg2.win 6).cut (grid2.coords t) ((dat2 V c).after 6 t) = _
  rw [after2_6]
  unfold out2_6
  rw [View.canon_unit_zero zero_offsets]
  simp only [View.ld_unit_zero (S := S4000x128) zero_offsets, View.ld_unit_zero (S := S1x128) zero_offsets]
  obtain ⟨a0, a1, b0, b1, g0, g1, s0, s1, m0, m1, v0, v1, o0, o1⟩ := idx_facts t
  funext j
  show k2_pay1 (iblk2 V c 0 t) (iblk2 V c 1 t) (iblk2 V c 4 t) (iblk2 V c 5 t) (iblk2 V c 2 t) (iblk2 V c 3 t) j
    = normRelu (V c main_v59) (V c main_v60) (V c main_v61) (V c main_v62) (V c main_v63) (V c main_v64) (((cfg2.win 6).blk t).view.emb j)
  refine (pay_apply _ _ _ _ _ _ j).trans ?_
  unfold normRelu
  have hj0 : (j 0).val < 4000 := (j 0).isLt
  have hj1 : (j 1).val < 128 := (j 1).isLt
  have h0 : ((cfg2.win 0).blk t).view.emb j = ((cfg2.win 6).blk t).view.emb j := by
    funext a; apply Fin.ext
    match a with
    | ⟨0, _⟩ => show win2_0.index t (0 : Fin 2) * 4000 + 1 * (j 0).val = win2_6.index t (0 : Fin 2) * 4000 + 1 * (j 0).val; omega
    | ⟨1, _⟩ => show win2_0.index t (1 : Fin 2) * 128 + 1 * (j 1).val = win2_6.index t (1 : Fin 2) * 128 + 1 * (j 1).val; omega
  have h1 : ((cfg2.win 1).blk t).view.emb (rowIx j) = rowOf (((cfg2.win 6).blk t).view.emb j) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_6.index t (1 : Fin 2) * 128 + 1 * (j 1).val; omega
  have h2 : ((cfg2.win 2).blk t).view.emb (rowIx j) = rowOf (((cfg2.win 6).blk t).view.emb j) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_6.index t (1 : Fin 2) * 128 + 1 * (j 1).val; omega
  have h3 : ((cfg2.win 3).blk t).view.emb (rowIx j) = rowOf (((cfg2.win 6).blk t).view.emb j) := by
    funext a; apply Fin.ext
    match a with
    | ⟨0, _⟩ => show win2_3.index t (0 : Fin 2) * 1 + 1 * 0 = 0; omega
    | ⟨1, _⟩ => show win2_3.index t (1 : Fin 2) * 128 + 1 * (j 1).val = win2_6.index t (1 : Fin 2) * 128 + 1 * (j 1).val; omega
  have h4 : ((cfg2.win 4).blk t).view.emb (rowIx j) = rowOf (((cfg2.win 6).blk t).view.emb j) := by
    funext a; apply Fin.ext
    match a with
    | ⟨0, _⟩ => show win2_4.index t (0 : Fin 2) * 1 + 1 * 0 = 0; omega
    | ⟨1, _⟩ => show win2_4.index t (1 : Fin 2) * 128 + 1 * (j 1).val = win2_6.index t (1 : Fin 2) * 128 + 1 * (j 1).val; omega
  have h5 : ((cfg2.win 5).blk t).view.emb (rowIx j) = rowOf (((cfg2.win 6).blk t).view.emb j) := by
    funext a; apply Fin.ext
    match a with
    | ⟨0, _⟩ => show win2_5.index t (0 : Fin 2) * 1 + 1 * 0 = 0; omega
    | ⟨1, _⟩ => show win2_5.index t (1 : Fin 2) * 128 + 1 * (j 1).val = win2_6.index t (1 : Fin 2) * 128 + 1 * (j 1).val; omega
  show bnRelu (V c main_v59 (((cfg2.win 0).blk t).view.emb j)) (V c main_v60 (((cfg2.win 1).blk t).view.emb (rowIx j)))
      (V c main_v63 (((cfg2.win 4).blk t).view.emb (rowIx j))) (V c main_v64 (((cfg2.win 5).blk t).view.emb (rowIx j)))
      (V c main_v61 (((cfg2.win 2).blk t).view.emb (rowIx j))) (V c main_v62 (((cfg2.win 3).blk t).view.emb (rowIx j))) = _
  rw [h0, h1, h2, h3, h4, h5]

/-- An index of the output array lies in point `t`'s block iff each coordinate lies in the block's range. -/
theorem mem_blk (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v65).slice (win2_6.rect t)).set ↔ _
  rw [View.set_slice_whole, Rect.mem_set_unit]
  exact Iff.rfl

/-- Every row belongs to a block: row `r` is written at grid point `r / 4000`. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : (i 0).val / 4000 < cfg2.N := by show _ < grid2.N; rw [N_2]; omega
  obtain ⟨a0, a1, b0, b1, g0, g1, s0, s1, m0, m1, v0, v1, o0, o1⟩ := idx_facts ⟨(i 0).val / 4000, hN⟩
  have o0' : win2_6.index ⟨(i 0).val / 4000, hN⟩ (0 : Fin 2) = (i 0).val / 4000 := o0
  refine ⟨⟨(i 0).val / 4000, hN⟩, flush2_6 _, ?_⟩
  rw [mem_blk]
  intro a
  match a with
  | ⟨0, _⟩ => show win2_6.index ⟨(i 0).val / 4000, hN⟩ (0 : Fin 2) * 4000 ≤ (i 0).val ∧ (i 0).val < win2_6.index ⟨(i 0).val / 4000, hN⟩ (0 : Fin 2) * 4000 + 4000; omega
  | ⟨1, _⟩ => show win2_6.index ⟨(i 0).val / 4000, hN⟩ (1 : Fin 2) * 128 ≤ (i 1).val ∧ (i 1).val < win2_6.index ⟨(i 0).val / 4000, hN⟩ (1 : Fin 2) * 128 + 128; omega

/-- The output array after the call: the chain applied to the aggregated array and the parameter rows as the call
    finds them. -/
theorem final (c : Dev nD) : (dat2 V c).arrAt 6 cfg2.N
    = normRelu (V c main_v59) (V c main_v60) (V c main_v61) (V c main_v62) (V c main_v63) (V c main_v64) :=
  (dat2 V c).arrAt_eq_of_cover 6 _ (fun t _ => flushed_eq V c t) cover

end Cert.KernelIdeal.NormRelu

end
-- ==== Proof.Region1.lean ====
/-
  The second pallas_call: bias, batch normalisation and ReLU of the aggregated features, then the next layer's
  matrix product, 4000 rows at a time.

  At grid point `t` the body loads rows 4000·t … 4000·t + 3999 of the aggregated array, five 1 × 128 parameter rows
  and the whole 128 × 128 weight matrix, applies the entrywise chain to the block, and multiplies the result by the
  weights into a zero accumulator. Entry (r, q) of the block is the sum over k of chain(block)(r, k) · W(k, q), so the
  output array is the matrix product of the normalised array with the weights: the first call's product applied to
  the third call's chain.
-/
import proofs.«153203_j69114613730602_1_alg».proof.Proof.Region0
import proofs.«153203_j69114613730602_1_alg».proof.Proof.Region2

set_option maxRecDepth 16384

noncomputable section

namespace Cert.KernelIdeal.NormReluProduct

open Cert.KernelIdeal Cert.KernelIdeal.Gen Cert.KernelIdeal.Norm Cert.KernelIdeal.Product Cert.KernelIdeal.NormRelu
open Idealize.ShloMosaic Idealize.ShloMosaic.TcCoe Idealize.SL.Sem
open Idealize.ShloMosaic.Pipeline (Dat)

/-- The body's one stored value at an entry of the block: the sum over `k` of the chain at (row, k) times the weight
    at (k, column). -/
theorem pay_apply (v0 : Vec Ideal S4000x128 .f32) (v2 v6 v10 v17 v21 : Vec Ideal S1x128 .f32) (v28 : Vec Ideal S128x128 .f32)
    (j : S4000x128.Idx) :
    k1_pay1 v0 v2 v6 v10 v17 v21 v28 j
      = ∑ k : Fin 128, bnRelu (v0 (blkRowAt j k)) (v2 (rowIx (blkRowAt j k))) (v6 (rowIx (blkRowAt j k))) (v10 (rowIx (blkRowAt j k)))
          (v17 (rowIx (blkRowAt j k))) (v21 (rowIx (blkRowAt j k))) * v28 (blkColAt j k) := by
  unfold k1_pay1
  refine (matmul_zero_apply _ _ j).trans ?_
  refine Finset.sum_congr rfl fun k _ => ?_
  exact congrArg (· * v28 (blkColAt j k)) (chain_apply v0 v2 v6 v10 v17 v21 (blkRowAt j k))

variable (V : (c : Dev nD) → (b : Ref sig .tc) → Buf (Elt Ideal) ((c : Thread nD τ).loc b))

/-- The windows' block indices at grid point `t`: the aggregated array and the output move down the rows with `t`;
    the parameter rows and the weights stay whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

set_option maxHeartbeats 8000000 in
/-- What point `t` writes back is block `t` of the product of the normalised array with the weights. -/
theorem flushed_eq (c : Dev nD) (t : Fin cfg1.N) :
    (dat1 V c).flushed 7 t = ((cfg1.win 7).blk t).view.read (Elt Ideal)
      (prod (normRelu (V c main_v40) (V c main_v41) (V c main_v42) (V c main_v43) (V c main_v44) (V c main_v45)) (V c main_arg9)) := by
  show (cfg1.win 7).cut (grid1.coords t) ((dat1 V c).after 7 t) = _
  rw [after1_7]
  unfold out1_7
  rw [View.canon_unit_zero Product.zero_offsets]
  simp only [View.ld_unit_zero (S := S4000x128) Product.zero_offsets, View.ld_unit_zero (S := S1x128) Product.zero_offsets,
    View.ld_unit_zero (S := S128x128) Product.zero_offsets]
  obtain ⟨a0, a1, b0, b1, g0, g1, s0, s1, m0, m1, v0, v1, w0, w1, o0, o1⟩ := idx_facts t
  funext j
  show k1_pay1 (iblk1 V c 0 t) (iblk1 V c 1 t) (iblk1 V c 4 t) (iblk1 V c 5 t) (iblk1 V c 2 t) (iblk1 V c 3 t) (iblk1 V c 6 t) j
    = prod (normRelu (V c main_v40) (V c main_v41) (V c main_v42) (V c main_v43) (V c main_v44) (V c main_v45)) (V c main_arg9)
        (((cfg1.win 7).blk t).view.emb j)
  refine (pay_apply _ _ _ _ _ _ _ j).trans ?_
  unfold prod normRelu
  refine Finset.sum_congr rfl fun k _ => ?_
  have hj0 : (j 0).val < 4000 := (j 0).isLt
  have hj1 : (j 1).val < 128 := (j 1).isLt
  have h0 : ((cfg1.win 0).blk t).view.emb (blkRowAt j k) = rowAt (((cfg1.win 7).blk t).view.emb j) k := by
    funext a; apply Fin.ext
    match a with
    | ⟨0, _⟩ => show win1_0.index t (0 : Fin 2) * 4000 + 1 * (j 0).val = win1_7.index t (0 : Fin 2) * 4000 + 1 * (j 0).val; omega
    | ⟨1, _⟩ => show win1_0.index t (1 : Fin 2) * 128 + 1 * k.val = k.val; omega
  have h1 : ((cfg1.win 1).blk t).view.emb (rowIx (blkRowAt j k)) = rowOf (rowAt (((cfg1.win 7).blk t).view.emb j) k) := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (rowIx (blkRowAt j k)) = rowOf (rowAt (((cfg1.win 7).blk t).view.emb j) k) := by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ((cfg1.win 3).blk t).view.emb (rowIx (blkRowAt j k)) = rowOf (rowAt (((cfg1.win 7).blk t).view.emb j) k) := by
    funext a; apply Fin.ext
    match a with
    | ⟨0, _⟩ => show win1_3.index t (0 : Fin 2) * 1 + 1 * 0 = 0; omega
    | ⟨1, _⟩ => show win1_3.index t (1 : Fin 2) * 128 + 1 * k.val = k.val; omega
  have h4 : ((cfg1.win 4).blk t).view.emb (rowIx (blkRowAt j k)) = rowOf (rowAt (((cfg1.win 7).blk t).view.emb j) k) := by
    funext a; apply Fin.ext
    match a with
    | ⟨0, _⟩ => show win1_4.index t (0 : Fin 2) * 1 + 1 * 0 = 0; omega
    | ⟨1, _⟩ => show win1_4.index t (1 : Fin 2) * 128 + 1 * k.val = k.val; omega
  have h5 : ((cfg1.win 5).blk t).view.emb (rowIx (blkRowAt j k)) = rowOf (rowAt (((cfg1.win 7).blk t).view.emb j) k) := by
    funext a; apply Fin.ext
    match a with
    | ⟨0, _⟩ => show win1_5.index t (0 : Fin 2) * 1 + 1 * 0 = 0; omega
    | ⟨1, _⟩ => show win1_5.index t (1 : Fin 2) * 128 + 1 * k.val = k.val; omega
  have h6 : ((cfg1.win 6).blk t).view.emb (blkColAt j k) = colAt (((cfg1.win 7).blk t).view.emb j) k := by
    funext a; apply Fin.ext
    match a with
    | ⟨0, _⟩ => show win1_6.index t (0 : Fin 2) * 128 + 1 * k.val = k.val; omega
    | ⟨1, _⟩ => show win1_6.index t (1 : Fin 2) * 128 + 1 * (j 1).val = win1_7.index t (1 : Fin 2) * 128 + 1 * (j 1).val; omega
  have hA : bnRelu (V c main_v40 (((cfg1.win 0).blk t).view.emb (blkRowAt j k)))
      (V c main_v41 (((cfg1.win 1).blk t).view.emb (rowIx (blkRowAt j k))))
      (V c main_v44 (((cfg1.win 4).blk t).view.emb (rowIx (blkRowAt j k))))
      (V c main_v45 (((cfg1.win 5).blk t).view.emb (rowIx (blkRowAt j k))))
      (V c main_v42 (((cfg1.win 2).blk t).view.emb (rowIx (blkRowAt j k))))
      (V c main_v43 (((cfg1.win 3).blk t).view.emb (rowIx (blkRowAt j k))))
    = bnRelu (V c main_v40 (rowAt (((cfg1.win 7).blk t).view.emb j) k))
      (V c main_v41 (rowOf (rowAt (((cfg1.win 7).blk t).view.emb j) k)))
      (V c main_v44 (rowOf (rowAt (((cfg1.win 7).blk t).view.emb j) k)))
      (V c main_v45 (rowOf (rowAt (((cfg1.win 7).blk t).view.emb j) k)))
      (V c main_v42 (rowOf (rowAt (((cfg1.win 7).blk t).view.emb j) k)))
      (V c main_v43 (rowOf (rowAt (((cfg1.win 7).blk t).view.emb j) k))) := by
    rw [h0, h1, h2, h3, h4, h5]
  exact congrArg₂ (fun (a b : EReal) => a * b) hA (congrArg (V c main_arg9) h6)

/-- An index of the output array lies in point `t`'s block iff each coordinate lies in the block's range. -/
theorem mem_blk (t : Fin cfg1.N) (i : S100000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v46).slice (win1_7.rect t)).set ↔ _
  rw [View.set_slice_whole, Rect.mem_set_unit]
  exact Iff.rfl

/-- Every row belongs to a block: row `r` is written at grid point `r / 4000`. -/
theorem cover (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : (i 0).val / 4000 < cfg1.N := by show _ < grid1.N; rw [N_1]; omega
  obtain ⟨a0, a1, b0, b1, g0, g1, s0, s1, m0, m1, v0, v1, w0, w1, o0, o1⟩ := idx_facts ⟨(i 0).val / 4000, hN⟩
  have o0' : win1_7.index ⟨(i 0).val / 4000, hN⟩ (0 : Fin 2) = (i 0).val / 4000 := o0
  refine ⟨⟨(i 0).val / 4000, hN⟩, flush1_7 _, ?_⟩
  rw [mem_blk]
  intro a
  match a with
  | ⟨0, _⟩ => show win1_7.index ⟨(i 0).val / 4000, hN⟩ (0 : Fin 2) * 4000 ≤ (i 0).val ∧ (i 0).val < win1_7.index ⟨(i 0).val / 4000, hN⟩ (0 : Fin 2) * 4000 + 4000; omega
  | ⟨1, _⟩ => show win1_7.index ⟨(i 0).val / 4000, hN⟩ (1 : Fin 2) * 128 ≤ (i 1).val ∧ (i 1).val < win1_7.index ⟨(i 0).val / 4000, hN⟩ (1 : Fin 2) * 128 + 128; omega

/-- The output array after the call: the product of the normalised aggregated array with the weights, all as the
    call finds them. -/
theorem final (c : Dev nD) : (dat1 V c).arrAt 7 cfg1.N
    = prod (normRelu (V c main_v40) (V c main_v41) (V c main_v42) (V c main_v43) (V c main_v44) (V c main_v45)) (V c main_arg9) :=
  (dat1 V c).arrAt_eq_of_cover 7 _ (fun t _ => flushed_eq V c t) cover

end Cert.KernelIdeal.NormReluProduct

end
-- ==== Proof.RefBridge.lean ====
/-
  The kernel's two entrywise specifications, met by the reference's operations.

  The reference program computes the same two things as the pallas_calls, but on whole arrays: a `dot_general` of a
  100000 × 128 array with a 128 × 128 array, and a chain of additions, a subtraction, multiplications, a reciprocal
  square root and a maximum over 100000 × 128 arrays, each per-column parameter broadcast from a vector of 128 first
  to a 1 × 128 row and then down all rows. Read at an entry, the `dot_general` is the sum over the contracted axis of
  row times column, and a broadcast parameter is the vector's entry in that column; the kernel's parameters are the
  same vectors reshaped to 1 × 128 rows. So the two specifications are these operations, as whole arrays.
-/
import proofs.«153203_j69114613730602_1_alg».proof.Proof.RefRead
import proofs.«153203_j69114613730602_1_alg».proof.Proof.Region1

set_option maxRecDepth 16384

noncomputable section

namespace Cert.Bridge

open Cert.KernelIdeal Cert.KernelIdeal.Gen Idealize.ShloMosaic Idealize.ShloMosaic.TcCoe Idealize.SL.Sem
open Cert.KernelIdeal.Product Cert.KernelIdeal.NormRelu Cert.KernelIdeal.Norm

/-! ## The matrix product -/

/-- The product specification is the reference's `dot_general`, for any two operand arrays. -/
theorem prod_eq (y : S100000x128.Idx → EReal) (w : S128x128.Idx → EReal) :
    prod y w = Cert.ReferenceIdeal.Read.val_main_v4 (F := Ideal) y w := by
  funext i
  exact (Cert.ReferenceIdeal.Read.val_main_v4_apply y w i).symm

/-! ## Bias, batch normalisation and ReLU -/

/-- The column of an array index, as an index into a vector of 128. -/
abbrev colIx (i : S100000x128.Idx) : S128.Idx := fun a => match a with
  | ⟨0, _⟩ => ⟨(i 1).val, (i 1).isLt⟩

/-- A vector of 128 broadcast to a 1 × 128 row and then down 100000 rows, read at an entry: the vector's entry in
    that column. -/
theorem bcast_rows_apply (v : Cert.ReferenceIdeal.S128.Idx → EReal) (i : S100000x128.Idx) :
    broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 v) i = v (colIx i) := by
  show Cert.ReferenceIdeal.Read.val_main_v42 (F := Ideal) v i = _
  rw [Cert.ReferenceIdeal.Read.val_main_v42_apply, Cert.ReferenceIdeal.Read.val_main_v41_apply]
  refine congrArg v (funext fun a => ?_)
  match a with
  | ⟨0, _⟩ => rfl

/-- A vector of 128 reshaped to a 1 × 128 row, read in the column of an array index: the vector's entry there. -/
theorem reshape_row_apply (v : S128.Idx → EReal) (i : S100000x128.Idx) :
    shapeCast S1x128 v shapeCasts_S128_S1x128 (rowOf i) = v (colIx i) := by
  refine (shapeCast_addUnit_apply ![128] v shapeCasts_S128_S1x128 (rowOf i)).trans ?_
  refine congrArg v (funext fun a => ?_)
  match a with
  | ⟨0, _⟩ => rfl

/-- The reference's chain on whole arrays: add the bias, subtract the running mean, multiply by the reciprocal
    square root of the running variance plus ε, scale, shift, and take the maximum with zero. -/
def refChain (agg : Cert.ReferenceIdeal.S100000x128.Idx → EReal) (b g be rm rv : Cert.ReferenceIdeal.S128.Idx → EReal) :
    Cert.ReferenceIdeal.S100000x128.Idx → EReal :=
  maximumf (F := Ideal) (addf (mulf (mulf (subf (addf agg
      (broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1 b)))
      (broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1 rm)))
      (broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1
        (Host.rsqrt (addf rv (broadcastInDim Cert.ReferenceIdeal.S128 ![] Cert.ReferenceIdeal.Gen.bcast_S_S128 (constant (F := Ideal) Cert.ReferenceIdeal.S_ .f32 0x3727C5AC#32)))))))
      (broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1 g)))
      (broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1 be)))
    (broadcastInDim Cert.ReferenceIdeal.S100000x128 ![] Cert.ReferenceIdeal.Gen.bcast_S_S100000x128 (constant (F := Ideal) Cert.ReferenceIdeal.S_ .f32 0x00000000#32))

/-- The reference's chain read at an entry is the kernel's entrywise chain of that entry and the parameters in its
    column. -/
theorem refChain_apply (agg : S100000x128.Idx → EReal) (b g be rm rv : S128.Idx → EReal) (i : S100000x128.Idx) :
    refChain agg b g be rm rv i = bnRelu (agg i) (b (colIx i)) (rm (colIx i)) (rv (colIx i)) (g (colIx i)) (be (colIx i)) := by
  unfold refChain
  simp only [ValueIdx.maximumf_apply, ValueIdx.addf_apply, ValueIdx.mulf_apply, ValueIdx.subf_apply]
  rw [bcast_rows_apply b i, bcast_rows_apply rm i, bcast_rows_apply g i, bcast_rows_apply be i, bcast_rows_apply _ i]
  rfl

/-- The kernel's specification over reshaped parameter rows is the reference's chain over the parameter vectors. -/
theorem normRelu_eq (agg : S100000x128.Idx → EReal) (b g be rm rv : S128.Idx → EReal) :
    normRelu agg (shapeCast S1x128 b shapeCasts_S128_S1x128) (shapeCast S1x128 g shapeCasts_S128_S1x128)
      (shapeCast S1x128 be shapeCasts_S128_S1x128) (shapeCast S1x128 rm shapeCasts_S128_S1x128)
      (shapeCast S1x128 rv shapeCasts_S128_S1x128) = refChain agg b g be rm rv := by
  funext i
  rw [refChain_apply]
  unfold normRelu
  rw [reshape_row_apply, reshape_row_apply, reshape_row_apply, reshape_row_apply, reshape_row_apply]

end Cert.Bridge

end
-- ==== Proof.Stages.lean ====
/-
  The idealized kernel program, read from the launch to the result.

  The program is seven segments: a stretch of host operations that builds the edge lists with self-loops and the
  symmetric degree normalisation; the first pallas_call (a matrix product); a stretch that gathers the product's rows
  along the edges, scales them and scatter-adds them per node; the second pallas_call (bias, batch normalisation,
  ReLU, then the second product); the same aggregation again; the third pallas_call (bias, batch normalisation, ReLU);
  and a last stretch that pools the nodes per graph, divides by the clamped counts, and applies the final linear map.
  Each stretch's results are the host operations' functions of the contents before it; each call's output array is
  its closed form of the contents it finds; every other buffer passes through a segment unchanged. Walking the
  boundaries in order, each intermediate array is the reference program's value of the same name-by-meaning stage, as
  a function of the launch contents of the argument arrays; the host operations between the calls are the same
  operations in both programs and are never opened.
-/
import proofs.«153203_j69114613730602_1_alg».proof.Proof.KernelRun
import proofs.«153203_j69114613730602_1_alg».proof.Proof.RefBridge

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo
open Cert.KernelIdeal.Product Cert.KernelIdeal.NormRelu Cert.KernelIdeal.Norm Cert.Bridge

variable (m : (ℓ : Loc nD τ sig) → Buf (Elt Ideal) ℓ) (ρ : Dev nD → PrngReg) (c : Dev nD)

/-! ## Before the first call: the edge lists and the normalisation; the arguments untouched -/

theorem W1_arg0 : W1 m ρ c (Proc.devRef .tc main_arg0) = m ((c : Thread nD τ).loc main_arg0) := by
  show StableHlo.after hostOps0 (W0 m ρ c) (Proc.devRef .tc main_arg0) = _
  after_results_simp <;> rfl
theorem W1_arg2 : W1 m ρ c (Proc.devRef .tc main_arg2) = m ((c : Thread nD τ).loc main_arg2) := by
  show StableHlo.after hostOps0 (W0 m ρ c) (Proc.devRef .tc main_arg2) = _
  after_results_simp <;> rfl
theorem W1_arg3 : W1 m ρ c (Proc.devRef .tc main_arg3) = m ((c : Thread nD τ).loc main_arg3) := by
  show StableHlo.after hostOps0 (W0 m ρ c) (Proc.devRef .tc main_arg3) = _
  after_results_simp <;> rfl
theorem W1_arg4 : W1 m ρ c (Proc.devRef .tc main_arg4) = m ((c : Thread nD τ).loc main_arg4) := by
  show StableHlo.after hostOps0 (W0 m ρ c) (Proc.devRef .tc main_arg4) = _
  after_results_simp <;> rfl
theorem W1_arg5 : W1 m ρ c (Proc.devRef .tc main_arg5) = m ((c : Thread nD τ).loc main_arg5) := by
  show StableHlo.after hostOps0 (W0 m ρ c) (Proc.devRef .tc main_arg5) = _
  after_results_simp <;> rfl
theorem W1_arg6 : W1 m ρ c (Proc.devRef .tc main_arg6) = m ((c : Thread nD τ).loc main_arg6) := by
  show StableHlo.after hostOps0 (W0 m ρ c) (Proc.devRef .tc main_arg6) = _
  after_results_simp <;> rfl
theorem W1_arg7 : W1 m ρ c (Proc.devRef .tc main_arg7) = m ((c : Thread nD τ).loc main_arg7) := by
  show StableHlo.after hostOps0 (W0 m ρ c) (Proc.devRef .tc main_arg7) = _
  after_results_simp <;> rfl
theorem W1_arg8 : W1 m ρ c (Proc.devRef .tc main_arg8) = m ((c : Thread nD τ).loc main_arg8) := by
  show StableHlo.after hostOps0 (W0 m ρ c) (Proc.devRef .tc main_arg8) = _
  after_results_simp <;> rfl
theorem W1_arg9 : W1 m ρ c (Proc.devRef .tc main_arg9) = m ((c : Thread nD τ).loc main_arg9) := by
  show StableHlo.after hostOps0 (W0 m ρ c) (Proc.devRef .tc main_arg9) = _
  after_results_simp <;> rfl
theorem W1_arg10 : W1 m ρ c (Proc.devRef .tc main_arg10) = m ((c : Thread nD τ).loc main_arg10) := by
  show StableHlo.after hostOps0 (W0 m ρ c) (Proc.devRef .tc main_arg10) = _
  after_results_simp <;> rfl
theorem W1_arg11 : W1 m ρ c (Proc.devRef .tc main_arg11) = m ((c : Thread nD τ).loc main_arg11) := by
  show StableHlo.after hostOps0 (W0 m ρ c) (Proc.devRef .tc main_arg11) = _
  after_results_simp <;> rfl
theorem W1_arg12 : W1 m ρ c (Proc.devRef .tc main_arg12) = m ((c : Thread nD τ).loc main_arg12) := by
  show StableHlo.after hostOps0 (W0 m ρ c) (Proc.devRef .tc main_arg12) = _
  after_results_simp <;> rfl
theorem W1_arg13 : W1 m ρ c (Proc.devRef .tc main_arg13) = m ((c : Thread nD τ).loc main_arg13) := by
  show StableHlo.after hostOps0 (W0 m ρ c) (Proc.devRef .tc main_arg13) = _
  after_results_simp <;> rfl
theorem W1_arg14 : W1 m ρ c (Proc.devRef .tc main_arg14) = m ((c : Thread nD τ).loc main_arg14) := by
  show StableHlo.after hostOps0 (W0 m ρ c) (Proc.devRef .tc main_arg14) = _
  after_results_simp <;> rfl
theorem W1_arg15 : W1 m ρ c (Proc.devRef .tc main_arg15) = m ((c : Thread nD τ).loc main_arg15) := by
  show StableHlo.after hostOps0 (W0 m ρ c) (Proc.devRef .tc main_arg15) = _
  after_results_simp <;> rfl
theorem W1_arg16 : W1 m ρ c (Proc.devRef .tc main_arg16) = m ((c : Thread nD τ).loc main_arg16) := by
  show StableHlo.after hostOps0 (W0 m ρ c) (Proc.devRef .tc main_arg16) = _
  after_results_simp <;> rfl

/-- The source list with self-loops appended. -/
theorem W1_src : W1 m ρ c (Proc.devRef .tc main_v5) = Cert.ReferenceIdeal.Read.val_main_v6 (F := Ideal) (m ((c : Thread nD τ).loc main_arg1)) := by
  show StableHlo.after hostOps0 (W0 m ρ c) (Proc.devRef .tc main_v5) = _
  after_results_simp <;> rfl
/-- The destination list with self-loops appended. -/
theorem W1_dst : W1 m ρ c (Proc.devRef .tc main_v6) = Cert.ReferenceIdeal.Read.val_main_v7 (F := Ideal) (m ((c : Thread nD τ).loc main_arg1)) := by
  show StableHlo.after hostOps0 (W0 m ρ c) (Proc.devRef .tc main_v6) = _
  after_results_simp <;> rfl
/-- The per-edge normalisation: the reciprocal square roots of the two endpoints' degrees, multiplied. -/
theorem W1_norm : W1 m ρ c (Proc.devRef .tc main_v26) = Cert.ReferenceIdeal.Read.val_main_v27 (F := Ideal) (m ((c : Thread nD τ).loc main_arg1)) := by
  show StableHlo.after hostOps0 (W0 m ρ c) (Proc.devRef .tc main_v26) = _
  after_results_simp <;> rfl

/-! ## After the first call: its output is the product; everything else as before -/

theorem W2_src : W2 m ρ c (Proc.devRef .tc main_v5) = Cert.ReferenceIdeal.Read.val_main_v6 (F := Ideal) (m ((c : Thread nD τ).loc main_arg1)) :=
  (W2_of_ne m ρ c main_v5 (by decide)).trans (W1_src m ρ c)
theorem W2_dst : W2 m ρ c (Proc.devRef .tc main_v6) = Cert.ReferenceIdeal.Read.val_main_v7 (F := Ideal) (m ((c : Thread nD τ).loc main_arg1)) :=
  (W2_of_ne m ρ c main_v6 (by decide)).trans (W1_dst m ρ c)
theorem W2_norm : W2 m ρ c (Proc.devRef .tc main_v26) = Cert.ReferenceIdeal.Read.val_main_v27 (F := Ideal) (m ((c : Thread nD τ).loc main_arg1)) :=
  (W2_of_ne m ρ c main_v26 (by decide)).trans (W1_norm m ρ c)
theorem W2_arg2 : W2 m ρ c (Proc.devRef .tc main_arg2) = m ((c : Thread nD τ).loc main_arg2) :=
  (W2_of_ne m ρ c main_arg2 (by decide)).trans (W1_arg2 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)
theorem W2_arg16 : W2 m ρ c (Proc.devRef .tc main_arg16) = m ((c : Thread nD τ).loc main_arg16) :=
  (W2_of_ne m ρ c main_arg16 (by decide)).trans (W1_arg16 m ρ c)

/-- The first call's output array: the product of the node features with the first weight matrix. -/
theorem W2_prod : W2 m ρ c (Proc.devRef .tc main_v27) = Cert.ReferenceIdeal.Read.val_main_v4 (F := Ideal) (m ((c : Thread nD τ).loc main_arg0)) (m ((c : Thread nD τ).loc main_arg3)) := by
  refine (W2_arr m ρ c 2).trans ?_
  refine (Product.final (V1 m ρ) c).trans ?_
  rw [show V1 m ρ c main_arg0 = m ((c : Thread nD τ).loc main_arg0) from W1_arg0 m ρ c,
    show V1 m ρ c main_arg3 = m ((c : Thread nD τ).loc main_arg3) from W1_arg3 m ρ c]
  exact prod_eq _ _

/-! ## Before the second call: the first aggregation, and the first layer's parameters as rows -/

theorem W3_src : W3 m ρ c (Proc.devRef .tc main_v5) = Cert.ReferenceIdeal.Read.val_main_v6 (F := Ideal) (m ((c : Thread nD τ).loc main_arg1)) := by
  show StableHlo.after hostOps1 (W2 m ρ c) (Proc.devRef .tc main_v5) = _
  after_results
  exact W2_src m ρ c
theorem W3_dst : W3 m ρ c (Proc.devRef .tc main_v6) = Cert.ReferenceIdeal.Read.val_main_v7 (F := Ideal) (m ((c : Thread nD τ).loc main_arg1)) := by
  show StableHlo.after hostOps1 (W2 m ρ c) (Proc.devRef .tc main_v6) = _
  after_results
  exact W2_dst m ρ c
theorem W3_norm : W3 m ρ c (Proc.devRef .tc main_v26) = Cert.ReferenceIdeal.Read.val_main_v27 (F := Ideal) (m ((c : Thread nD τ).loc main_arg1)) := by
  show StableHlo.after hostOps1 (W2 m ρ c) (Proc.devRef .tc main_v26) = _
  after_results
  exact W2_norm m ρ c
theorem W3_arg2 : W3 m ρ c (Proc.devRef .tc main_arg2) = m ((c : Thread nD τ).loc main_arg2) := by
  show StableHlo.after hostOps1 (W2 m ρ c) (Proc.devRef .tc main_arg2) = _
  after_results
  exact W2_arg2 m ρ c
theorem W3_arg9 : W3 m ρ c (Proc.devRef .tc main_arg9) = m ((c : Thread nD τ).loc main_arg9) := by
  show StableHlo.after hostOps1 (W2 m ρ c) (Proc.devRef .tc main_arg9) = _
  after_results
  exact W2_arg9 m ρ c
theorem W3_arg10 : W3 m ρ c (Proc.devRef .tc main_arg10) = m ((c : Thread nD τ).loc main_arg10) := by
  show StableHlo.after hostOps1 (W2 m ρ c) (Proc.devRef .tc main_arg10) = _
  after_results
  exact W2_arg10 m ρ c
theorem W3_arg11 : W3 m ρ c (Proc.devRef .tc main_arg11) = m ((c : Thread nD τ).loc main_arg11) := by
  show StableHlo.after hostOps1 (W2 m ρ c) (Proc.devRef .tc main_arg11) = _
  after_results
  exact W2_arg11 m ρ c
theorem W3_arg12 : W3 m ρ c (Proc.devRef .tc main_arg12) = m ((c : Thread nD τ).loc main_arg12) := by
  show StableHlo.after hostOps1 (W2 m ρ c) (Proc.devRef .tc main_arg12) = _
  after_results
  exact W2_arg12 m ρ c
theorem W3_arg13 : W3 m ρ c (Proc.devRef .tc main_arg13) = m ((c : Thread nD τ).loc main_arg13) := by
  show StableHlo.after hostOps1 (W2 m ρ c) (Proc.devRef .tc main_arg13) = _
  after_results
  exact W2_arg13 m ρ c
theorem W3_arg14 : W3 m ρ c (Proc.devRef .tc main_arg14) = m ((c : Thread nD τ).loc main_arg14) := by
  show StableHlo.after hostOps1 (W2 m ρ c) (Proc.devRef .tc main_arg14) = _
  after_results
  exact W2_arg14 m ρ c
theorem W3_arg15 : W3 m ρ c (Proc.devRef .tc main_arg15) = m ((c : Thread nD τ).loc main_arg15) := by
  show StableHlo.after hostOps1 (W2 m ρ c) (Proc.devRef .tc main_arg15) = _
  after_results
  exact W2_arg15 m ρ c
theorem W3_arg16 : W3 m ρ c (Proc.devRef .tc main_arg16) = m ((c : Thread nD τ).loc main_arg16) := by
  show StableHlo.after hostOps1 (W2 m ρ c) (Proc.devRef .tc main_arg16) = _
  after_results
  exact W2_arg16 m ρ c

set_option maxHeartbeats 8000000 in
/-- The product's rows gathered along the edges, scaled by the normalisation, and scatter-added per node. -/
theorem W3_agg : W3 m ρ c (Proc.devRef .tc main_v40) = Cert.ReferenceIdeal.Read.val_main_v40 (F := Ideal) (m ((c : Thread nD τ).loc main_arg0)) (m ((c : Thread nD τ).loc main_arg1)) (m ((c : Thread nD τ).loc main_arg3)) := by
  show StableHlo.after hostOps1 (W2 m ρ c) (Proc.devRef .tc main_v40) = _
  after_results
  rw [W2_prod m ρ c, W2_src m ρ c, W2_dst m ρ c, W2_norm m ρ c]
  rfl
theorem W3_row4 : W3 m ρ c (Proc.devRef .tc main_v41) = shapeCast S1x128 (m ((c : Thread nD τ).loc main_arg4)) shapeCasts_S128_S1x128 := by
  show StableHlo.after hostOps1 (W2 m ρ c) (Proc.devRef .tc main_v41) = _
  after_results
  rw [W2_arg4 m ρ c]
  rfl
theorem W3_row5 : W3 m ρ c (Proc.devRef .tc main_v42) = shapeCast S1x128 (m ((c : Thread nD τ).loc main_arg5)) shapeCasts_S128_S1x128 := by
  show StableHlo.after hostOps1 (W2 m ρ c) (Proc.devRef .tc main_v42) = _
  after_results
  rw [W2_arg5 m ρ c]
  rfl
theorem W3_row6 : W3 m ρ c (Proc.devRef .tc main_v43) = shapeCast S1x128 (m ((c : Thread nD τ).loc main_arg6)) shapeCasts_S128_S1x128 := by
  show StableHlo.after hostOps1 (W2 m ρ c) (Proc.devRef .tc main_v43) = _
  after_results
  rw [W2_arg6 m ρ c]
  rfl
theorem W3_row7 : W3 m ρ c (Proc.devRef .tc main_v44) = shapeCast S1x128 (m ((c : Thread nD τ).loc main_arg7)) shapeCasts_S128_S1x128 := by
  show StableHlo.after hostOps1 (W2 m ρ c) (Proc.devRef .tc main_v44) = _
  after_results
  rw [W2_arg7 m ρ c]
  rfl
theorem W3_row8 : W3 m ρ c (Proc.devRef .tc main_v45) = shapeCast S1x128 (m ((c : Thread nD τ).loc main_arg8)) shapeCasts_S128_S1x128 := by
  show StableHlo.after hostOps1 (W2 m ρ c) (Proc.devRef .tc main_v45) = _
  after_results
  rw [W2_arg8 m ρ c]
  rfl

/-! ## After the second call: its output is the second product of the normalised first aggregation -/

theorem W4_src : W4 m ρ c (Proc.devRef .tc main_v5) = Cert.ReferenceIdeal.Read.val_main_v6 (F := Ideal) (m ((c : Thread nD τ).loc main_arg1)) :=
  (W4_of_ne m ρ c main_v5 (by decide)).trans (W3_src m ρ c)
theorem W4_dst : W4 m ρ c (Proc.devRef .tc main_v6) = Cert.ReferenceIdeal.Read.val_main_v7 (F := Ideal) (m ((c : Thread nD τ).loc main_arg1)) :=
  (W4_of_ne m ρ c main_v6 (by decide)).trans (W3_dst m ρ c)
theorem W4_norm : W4 m ρ c (Proc.devRef .tc main_v26) = Cert.ReferenceIdeal.Read.val_main_v27 (F := Ideal) (m ((c : Thread nD τ).loc main_arg1)) :=
  (W4_of_ne m ρ c main_v26 (by decide)).trans (W3_norm m ρ c)
theorem W4_arg2 : W4 m ρ c (Proc.devRef .tc main_arg2) = m ((c : Thread nD τ).loc main_arg2) :=
  (W4_of_ne m ρ c main_arg2 (by decide)).trans (W3_arg2 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)
theorem W4_arg13 : W4 m ρ c (Proc.devRef .tc main_arg13) = m ((c : Thread nD τ).loc main_arg13) :=
  (W4_of_ne m ρ c main_arg13 (by decide)).trans (W3_arg13 m ρ c)
theorem W4_arg14 : W4 m ρ c (Proc.devRef .tc main_arg14) = m ((c : Thread nD τ).loc main_arg14) :=
  (W4_of_ne m ρ c main_arg14 (by decide)).trans (W3_arg14 m ρ c)
theorem W4_arg15 : W4 m ρ c (Proc.devRef .tc main_arg15) = m ((c : Thread nD τ).loc main_arg15) :=
  (W4_of_ne m ρ c main_arg15 (by decide)).trans (W3_arg15 m ρ c)
theorem W4_arg16 : W4 m ρ c (Proc.devRef .tc main_arg16) = m ((c : Thread nD τ).loc main_arg16) :=
  (W4_of_ne m ρ c main_arg16 (by decide)).trans (W3_arg16 m ρ c)

/-- The second call's output array: bias, batch normalisation and ReLU of the first aggregation, times the second
    weight matrix. -/
theorem W4_prod : W4 m ρ c (Proc.devRef .tc main_v46) = Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 7).trans ?_
  refine (NormReluProduct.final (V3 m ρ) c).trans ?_
  rw [show V3 m ρ c main_v40 = _ from W3_agg m ρ c, show V3 m ρ c main_v41 = _ from W3_row4 m ρ c,
    show V3 m ρ c main_v42 = _ from W3_row5 m ρ c, show V3 m ρ c main_v43 = _ from W3_row6 m ρ c,
    show V3 m ρ c main_v44 = _ from W3_row7 m ρ c, show V3 m ρ c main_v45 = _ from W3_row8 m ρ c,
    show V3 m ρ c main_arg9 = _ from W3_arg9 m ρ c]
  rw [normRelu_eq, prod_eq]
  rfl

/-! ## Before the third call: the second aggregation, and the second layer's parameters as rows -/

theorem W5_arg2 : W5 m ρ c (Proc.devRef .tc main_arg2) = m ((c : Thread nD τ).loc main_arg2) := by
  show StableHlo.after hostOps2 (W4 m ρ c) (Proc.devRef .tc main_arg2) = _
  after_results
  exact W4_arg2 m ρ c
theorem W5_arg15 : W5 m ρ c (Proc.devRef .tc main_arg15) = m ((c : Thread nD τ).loc main_arg15) := by
  show StableHlo.after hostOps2 (W4 m ρ c) (Proc.devRef .tc main_arg15) = _
  after_results
  exact W4_arg15 m ρ c
theorem W5_arg16 : W5 m ρ c (Proc.devRef .tc main_arg16) = m ((c : Thread nD τ).loc main_arg16) := by
  show StableHlo.after hostOps2 (W4 m ρ c) (Proc.devRef .tc main_arg16) = _
  after_results
  exact W4_arg16 m ρ c

set_option maxHeartbeats 8000000 in
/-- The second product's rows gathered along the edges, scaled, and scatter-added per node. -/
theorem W5_agg : W5 m ρ c (Proc.devRef .tc main_v59) = Cert.ReferenceIdeal.Read.val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v59) = _
  after_results
  rw [W4_prod m ρ c, W4_src m ρ c, W4_dst m ρ c, W4_norm m ρ c]
  rfl
theorem W5_row10 : W5 m ρ c (Proc.devRef .tc main_v60) = shapeCast S1x128 (m ((c : Thread nD τ).loc main_arg10)) shapeCasts_S128_S1x128 := by
  show StableHlo.after hostOps2 (W4 m ρ c) (Proc.devRef .tc main_v60) = _
  after_results
  rw [W4_arg10 m ρ c]
  rfl
theorem W5_row11 : W5 m ρ c (Proc.devRef .tc main_v61) = shapeCast S1x128 (m ((c : Thread nD τ).loc main_arg11)) shapeCasts_S128_S1x128 := by
  show StableHlo.after hostOps2 (W4 m ρ c) (Proc.devRef .tc main_v61) = _
  after_results
  rw [W4_arg11 m ρ c]
  rfl
theorem W5_row12 : W5 m ρ c (Proc.devRef .tc main_v62) = shapeCast S1x128 (m ((c : Thread nD τ).loc main_arg12)) shapeCasts_S128_S1x128 := by
  show StableHlo.after hostOps2 (W4 m ρ c) (Proc.devRef .tc main_v62) = _
  after_results
  rw [W4_arg12 m ρ c]
  rfl
theorem W5_row13 : W5 m ρ c (Proc.devRef .tc main_v63) = shapeCast S1x128 (m ((c : Thread nD τ).loc main_arg13)) shapeCasts_S128_S1x128 := by
  show StableHlo.after hostOps2 (W4 m ρ c) (Proc.devRef .tc main_v63) = _
  after_results
  rw [W4_arg13 m ρ c]
  rfl
theorem W5_row14 : W5 m ρ c (Proc.devRef .tc main_v64) = shapeCast S1x128 (m ((c : Thread nD τ).loc main_arg14)) shapeCasts_S128_S1x128 := by
  show StableHlo.after hostOps2 (W4 m ρ c) (Proc.devRef .tc main_v64) = _
  after_results
  rw [W4_arg14 m ρ c]
  rfl

/-! ## After the third call: its output is the normalised second aggregation -/

theorem W6_arg2 : W6 m ρ c (Proc.devRef .tc main_arg2) = m ((c : Thread nD τ).loc main_arg2) :=
  (W6_of_ne m ρ c main_arg2 (by decide)).trans (W5_arg2 m ρ c)
theorem W6_arg15 : W6 m ρ c (Proc.devRef .tc main_arg15) = m ((c : Thread nD τ).loc main_arg15) :=
  (W6_of_ne m ρ c main_arg15 (by decide)).trans (W5_arg15 m ρ c)
theorem W6_arg16 : W6 m ρ c (Proc.devRef .tc main_arg16) = m ((c : Thread nD τ).loc main_arg16) :=
  (W6_of_ne m ρ c main_arg16 (by decide)).trans (W5_arg16 m ρ c)

/-- The third call's output array: bias, batch normalisation and ReLU of the second aggregation. -/
theorem W6_out : W6 m ρ c (Proc.devRef .tc main_v65) = Cert.ReferenceIdeal.Read.val_main_v115 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 6).trans ?_
  refine (NormRelu.final (V5 m ρ) c).trans ?_
  rw [show V5 m ρ c main_v59 = _ from W5_agg m ρ c, show V5 m ρ c main_v60 = _ from W5_row10 m ρ c,
    show V5 m ρ c main_v61 = _ from W5_row11 m ρ c, show V5 m ρ c main_v62 = _ from W5_row12 m ρ c,
    show V5 m ρ c main_v63 = _ from W5_row13 m ρ c, show V5 m ρ c main_v64 = _ from W5_row14 m ρ c]
  rw [normRelu_eq]
  rfl

/-! ## The result: pooling per graph, the mean, and the final linear map -/

set_option maxHeartbeats 8000000 in
/-- The result buffer after the last stretch is the reference's result, as a function of the argument arrays. -/
theorem W7_result : W7 m ρ c (Proc.devRef .tc main_v81) = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps3 (W6 m ρ c) (Proc.devRef .tc main_v81) = _
  after_results
  rw [W6_out m ρ c, W6_arg2 m ρ c, W6_arg15 m ρ c, W6_arg16 m ρ c]
  rfl

end Cert.KernelIdeal.Stages

end
-- ==== Proof.Claims.lean ====
/-
  The five claims.

  The three frames: the two kernel programs run through their seven segments with the arguments untouched; the
  reference is a straight line of host operations, and its run leaves the arguments untouched too. The idealized
  kernel is the kernel's own text read at the ideal instance (no operation was rewritten), so nothing is owed for
  it. The value claim: from memories that agree on the arguments, the idealized kernel's result buffer ends at the
  reference's result function of the argument arrays (the walk through the seven segments), and the reference's own
  run ends at the same function of its arguments, which are the same arrays.
-/
import proofs.«153203_j69114613730602_1_alg».proof.Defs
import proofs.«153203_j69114613730602_1_alg».proof.Proof.Gen.Kernel.Frame
import proofs.«153203_j69114613730602_1_alg».proof.Proof.Gen.Pre_finite_inputs
import proofs.«153203_j69114613730602_1_alg».proof.Proof.Stages

set_option maxRecDepth 16384

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result function of the (shared) argument arrays in their result buffers. -/
theorem algebraic : Cert.algebraic_KernelIdeal_ReferenceIdeal := by
  intro m ρ m' ρ' _ hagree
  refine ⟨fun c => Cert.ReferenceIdeal.Read.val_main_v131 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Stages.W7_result m ρ c), (h c).2⟩)
      (Cert.KernelIdeal.Result.run_result m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v131_eq]
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

end Cert.Proof.Claims

end
-- ==== Proof.lean ====
/-
  The certificate: a two-layer graph convolution network with mean pooling and a final linear map, its three dense
  stages as Pallas kernels, against the plain array program.

  Both programs compute, for node features x, an edge list, graph ids and the two layers' parameters,
      h₁ = relu (bn₁ (agg (x · W₁) + b₁)),   h₂ = relu (bn₂ (agg (h₁ · W₂) + b₂)),   out = mean-pool (h₂) · W_f + b_f,
  where agg gathers rows along the edges with self-loops, scales them by the symmetric degree normalisation and
  scatter-adds them per node. The kernel program computes the two matrix products and the two bias / normalisation /
  ReLU chains in pallas_calls over blocks of 4000 rows (the second product fused after the first chain); the gathers,
  scatters, pooling and final linear map are the same host operations in both programs. Over the extended reals the
  blocked matrix products are the whole products, a parameter row reshaped to 1 × 128 and broadcast down a block is the
  parameter broadcast down the whole array, and the change of format to bf16 is the identity, so every intermediate
  array agrees; no algebraic law beyond reading sums and broadcasts at an entry is needed, and finiteness of the
  inputs is not used.
-/
import proofs.«153203_j69114613730602_1_alg».proof.Defs
import proofs.«153203_j69114613730602_1_alg».proof.Proof.Gen.Kernel
import proofs.«153203_j69114613730602_1_alg».proof.Proof.Gen.KernelIdeal
import proofs.«153203_j69114613730602_1_alg».proof.Proof.Gen.ReferenceIdeal
import proofs.«153203_j69114613730602_1_alg».proof.Proof.Gen.Pre_finite_inputs
import proofs.«153203_j69114613730602_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
